-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x64 : Shape := ⟨2, ![1600000, 64]⟩
abbrev S1600000 : Shape := ⟨1, ![1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S1600000x64 .f32) (main_arg2 : IVec S1600000 32) (main_arg3 : IVec S1600000 32) (main_arg4 : FVec F S64x128 .f32) (main_arg5 : FVec F S128 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x64 : Shape := ⟨2, ![50000, 64]⟩
abbrev S1600000x64 : Shape := ⟨2, ![1600000, 64]⟩
abbrev S1600000 : Shape := ⟨1, ![1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S8000x64 : Shape := ⟨2, ![8000, 64]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩

abbrev nBuf : Space → Nat
  | .hbm => 23
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S50000x64, .f32⟩
  | .hbm, ⟨20, _⟩ => ⟨S1600000x1, .i32⟩
  | .hbm, ⟨21, _⟩ => ⟨S50000x64, .f32⟩
  | .hbm, ⟨22, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S5000x64, .f32⟩
  | .local _ .vmem, ⟨7, _⟩ => ⟨S5000x64, .f32⟩
  | .local _ .vmem, ⟨8, _⟩ => ⟨S64x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1600000x64.size a
  hwx0_2 : ∀ i : grid0.Coords, EltTy.bits .f32 = 32 ∨ (Rect.block (s := S1600000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S1600000x64 : Shape := ⟨2, ![1600000, 64]⟩
abbrev S1600000 : Shape := ⟨1, ![1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S50000x128 : Shape := ⟨2, ![50000, 128]⟩
abbrev S1x128 : Shape := ⟨2, ![1, 128]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S50000x64, .f32⟩
  | .hbm, ⟨20, _⟩ => ⟨S1600000x1, .i32⟩
  | .hbm, ⟨21, _⟩ => ⟨S50000x64, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result array named.

  @main is four segments: the host operations that compute the gather, the edge-add kernel, the host operations that
  compute the segment sum, and the MLP kernel. The buffer contents at each boundary are a fold from the launch memory
  (host operations applied, or a kernel's arrays at what its write-backs leave). The run below is the launch over those
  segments, read at the end against the last boundary's contents: the result array holds what the MLP kernel's
  write-backs leave of it, and every argument array is as launched.
-/
import proofs.«145399_j420906795778_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and every argument array as launched. -/
theorem run_named : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.MlpSpec.lean ====
/-
  A two-layer perceptron with a rectifier, entry by entry on the extended reals.

  For a matrix `A` of `n` rows and 64 columns, weights `W1` (64 by 128), `W2` (128 by 64) and biases `b1`, `b2`:
  hidden unit `k` of row `p` is `max (∑ j, A p j · W1 j k + b1 k) 0`, and output `q` of row `p` is
  `∑ k, hidden p k · W2 k q + b2 q`. A row of the result depends on that row of `A` only, which is why a kernel may
  compute it block of rows by block of rows. The second half reads the vector expression "product into a zero
  accumulator, bias row broadcast and added, maximum with zero, product, bias" at an entry as this function.
-/
import Idealize.ShloMosaic.PureOps.Ideal.Laws
import Idealize.ShloMosaic.Lib.ValueIdx
import Idealize.ShloMosaic.Lib.Pipeline.Value
import Idealize.ShloMosaic.Lib.ValueLayout
import proofs.«145399_j420906795778_2_alg».proof.Proof.LibPlainMatmul

noncomputable section

namespace Cert.GinMlp

open Idealize.ShloMosaic Idealize.ShloMosaic.ValueIdx
open scoped BigOperators

variable (n : ℕ)

/-- Hidden unit `k` of row `p`: the rectified affine form of the row. -/
def hid (A : FVec Ideal ⟨2, ![n, 64]⟩ .f32) (W1 : FVec Ideal ⟨2, ![64, 128]⟩ .f32) (b1 : FVec Ideal ⟨1, ![128]⟩ .f32)
    (p : Fin n) (k : Fin 128) : EReal :=
  max ((∑ j : Fin 64, A (ix2 p j) * W1 (ix2 j k)) + b1 (ix1 k)) (Ideal.ofBits .f32 0x00000000#32)

/-- Output `q` of row `p`. -/
def out (A : FVec Ideal ⟨2, ![n, 64]⟩ .f32) (W1 : FVec Ideal ⟨2, ![64, 128]⟩ .f32) (b1 : FVec Ideal ⟨1, ![128]⟩ .f32)
    (W2 : FVec Ideal ⟨2, ![128, 64]⟩ .f32) (b2 : FVec Ideal ⟨1, ![64]⟩ .f32) (p : Fin n) (q : Fin 64) : EReal :=
  (∑ k : Fin 128, hid n A W1 b1 p k * W2 (ix2 k q)) + b2 (ix1 q)

/-- The result as an array: entry `i` is output `i 1` of row `i 0`. -/
def outArr (A : FVec Ideal ⟨2, ![n, 64]⟩ .f32) (W1 : FVec Ideal ⟨2, ![64, 128]⟩ .f32) (b1 : FVec Ideal ⟨1, ![128]⟩ .f32)
    (W2 : FVec Ideal ⟨2, ![128, 64]⟩ .f32) (b2 : FVec Ideal ⟨1, ![64]⟩ .f32) : FVec Ideal ⟨2, ![n, 64]⟩ .f32 :=
  fun i => out n A W1 b1 W2 b2 (i 0) (i 1)

theorem outArr_ix2 (A : FVec Ideal ⟨2, ![n, 64]⟩ .f32) (W1 : FVec Ideal ⟨2, ![64, 128]⟩ .f32) (b1 : FVec Ideal ⟨1, ![128]⟩ .f32)
    (W2 : FVec Ideal ⟨2, ![128, 64]⟩ .f32) (b2 : FVec Ideal ⟨1, ![64]⟩ .f32) (p : Fin n) (q : Fin 64) :
    outArr n A W1 b1 W2 b2 (ix2 p q) = out n A W1 b1 W2 b2 p q := rfl

/-- A bias vector cast to one row and broadcast over the rows reads, at `(p, c)`, the bias at `c`. -/
theorem biasRow_apply {N : ℕ} (b : FVec Ideal ⟨1, ![N]⟩ .f32) (h1 : (⟨1, ![N]⟩ : Shape).ShapeCasts ⟨2, ![1, N]⟩)
    (h2 : (⟨2, ![1, N]⟩ : Shape).Broadcasts ⟨2, ![n, N]⟩) (p : Fin n) (c : Fin N) :
    broadcastTo ⟨2, ![n, N]⟩ (shapeCast ⟨2, ![1, N]⟩ b h1) h2 (ix2 p c) = b (ix1 c) := by
  rw [broadcastTo_1b_ab_apply, shapeCast_a_1a_apply]

/-- The vector expression of the two layers, read at entry `(p, q)`. -/
theorem vectorForm_apply
    (d1 : DotDims ⟨2, ![n, 64]⟩ ⟨2, ![64, 128]⟩ ⟨2, ![n, 128]⟩) (hd1 : d1 = DotDims.plain n 64 128)
    (d2 : DotDims ⟨2, ![n, 128]⟩ ⟨2, ![128, 64]⟩ ⟨2, ![n, 64]⟩) (hd2 : d2 = DotDims.plain n 128 64)
    (A : FVec Ideal ⟨2, ![n, 64]⟩ .f32) (W1 : FVec Ideal ⟨2, ![64, 128]⟩ .f32) (b1 : FVec Ideal ⟨1, ![128]⟩ .f32)
    (W2 : FVec Ideal ⟨2, ![128, 64]⟩ .f32) (b2 : FVec Ideal ⟨1, ![64]⟩ .f32)
    (h1 : (⟨1, ![128]⟩ : Shape).ShapeCasts ⟨2, ![1, 128]⟩) (h2 : (⟨2, ![1, 128]⟩ : Shape).Broadcasts ⟨2, ![n, 128]⟩)
    (h3 : (⟨1, ![64]⟩ : Shape).ShapeCasts ⟨2, ![1, 64]⟩) (h4 : (⟨2, ![1, 64]⟩ : Shape).Broadcasts ⟨2, ![n, 64]⟩)
    (p : Fin n) (q : Fin 64) :
    addf (matmul d2 none
        (maximumf (addf (matmul d1 none A W1 (constant (F := Ideal) ⟨2, ![n, 128]⟩ .f32 0x00000000#32))
            (broadcastTo ⟨2, ![n, 128]⟩ (shapeCast ⟨2, ![1, 128]⟩ b1 h1) h2))
          (broadcast ⟨2, ![n, 128]⟩ (Ideal.ofBits .f32 0x00000000#32)))
        W2 (constant (F := Ideal) ⟨2, ![n, 64]⟩ .f32 0x00000000#32))
      (broadcastTo ⟨2, ![n, 64]⟩ (shapeCast ⟨2, ![1, 64]⟩ b2 h3) h4) (ix2 p q)
      = out n A W1 b1 W2 b2 p q := by
  subst hd1 hd2
  rw [addf_apply, Cert.LibPlainMatmul.matmul_zero_apply, biasRow_apply]
  unfold out
  refine congrArg (· + b2 (ix1 q)) (Finset.sum_congr rfl fun k _ => congrArg (· * W2 (ix2 k q)) ?_)
  rw [maximumf_apply, addf_apply, Cert.LibPlainMatmul.matmul_zero_apply, biasRow_apply, broadcast_apply]
  rfl

/-- A row of the result depends only on that row of the matrix (and on the weights and biases entry by entry): the same
    function of a block of rows, read at a row of the block, and of the whole matrix, read at that row of it. -/
theorem out_congr {n' : ℕ} (A : FVec Ideal ⟨2, ![n, 64]⟩ .f32) (A' : FVec Ideal ⟨2, ![n', 64]⟩ .f32)
    (W1 W1' : FVec Ideal ⟨2, ![64, 128]⟩ .f32) (b1 b1' : FVec Ideal ⟨1, ![128]⟩ .f32)
    (W2 W2' : FVec Ideal ⟨2, ![128, 64]⟩ .f32) (b2 b2' : FVec Ideal ⟨1, ![64]⟩ .f32) (p : Fin n) (p' : Fin n') (q : Fin 64)
    (hA : ∀ j, A (ix2 p j) = A' (ix2 p' j)) (hW1 : ∀ j k, W1 (ix2 j k) = W1' (ix2 j k)) (hb1 : ∀ k, b1 (ix1 k) = b1' (ix1 k))
    (hW2 : ∀ k c, W2 (ix2 k c) = W2' (ix2 k c)) (hb2 : ∀ c, b2 (ix1 c) = b2' (ix1 c)) :
    out n A W1 b1 W2 b2 p q = out n' A' W1' b1' W2' b2' p' q := by
  unfold out hid
  simp only [hA, hW1, hb1, hW2, hb2]

end Cert.GinMlp

end
-- ==== Proof.MlpPayload.lean ====
/-
  The MLP kernel's body as a function of its loaded blocks, entry by entry.

  The body rounds its two operands to bf16 before each product (the identity on extended reals), multiplies into a zero
  accumulator, adds the bias row, takes the maximum with zero, multiplies again and adds the second bias row: at entry
  `(p, q)` of a block of 5000 rows it is the two-layer perceptron's output `q` of the block's row `p`.
  The edge-add kernel's body is the entrywise sum of its two loaded blocks.
-/
import proofs.«145399_j420906795778_2_alg».proof.Proof.Gen.KernelIdeal.Skeleton
import proofs.«145399_j420906795778_2_alg».proof.Proof.MlpSpec

noncomputable section

namespace Cert.KernelIdeal.Payload

open Cert.KernelIdeal Cert.KernelIdeal.Gen Idealize.ShloMosaic Idealize.ShloMosaic.ValueIdx

/-- The first product's dimension numbers are the plain ones. -/
theorem dot1_plain : dot_S5000x64_S64x128_S5000x128_1_0_0_1_n_n = DotDims.plain 5000 64 128 := rfl
/-- The second product's dimension numbers are the plain ones. -/
theorem dot2_plain : dot_S5000x128_S128x64_S5000x64_1_0_0_1_n_n = DotDims.plain 5000 128 64 := rfl

/-- The edge-add body's stored value is the sum of its two loads. -/
theorem add_pay {F : FTy → Type} [FloatOps F] (x0 x1 : Vec F S8000x64 .f32) : k0_pay1 x0 x1 = addf x0 x1 := by
  unfold k0_pay1
  rw [shapeCast_self]

/-- The MLP body's stored value at entry `(p, q)`. -/
theorem mlp_pay_apply (x0 : Vec Ideal S5000x64 .f32) (x1 : Vec Ideal S64x128 .f32) (x2 : Vec Ideal S128 .f32)
    (x3 : Vec Ideal S128x64 .f32) (x4 : Vec Ideal S64 .f32) (p : Fin 5000) (q : Fin 64) :
    k1_pay1 (F := Ideal) x0 x1 x2 x3 x4 (ix2 p q) = Cert.GinMlp.out 5000 x0 x1 x2 x3 x4 p q := by
  unfold k1_pay1
  rw [shapeCast_self]
  exact Cert.GinMlp.vectorForm_apply 5000 _ dot1_plain _ dot2_plain x0 x1 x2 x3 x4 _ _ _ _ p q

end Cert.KernelIdeal.Payload

end
-- ==== Proof.KernelValue.lean ====
/-
  What each kernel leaves in its result array, for any contents of the buffers at the kernel's entry.

  The edge-add kernel walks 200 blocks of 8000 edges: at block `t` it reads rows `8000 t … 8000 t + 7999` of its two
  operands and writes their entrywise sum to the same rows of the result; the blocks tile the 1600000 rows, so the
  result array ends as the entrywise sum of the two operand arrays.
  The MLP kernel walks 10 blocks of 5000 nodes: at block `t` it reads rows `5000 t … 5000 t + 4999` of the aggregated
  features and the whole weight and bias arrays, and writes the two-layer perceptron of those rows to the same rows of
  the result. A row of the perceptron's output depends on that row of its input only, so the block written is the
  block of the perceptron of the whole array; the blocks tile the 50000 rows.
-/
import proofs.«145399_j420906795778_2_alg».proof.Proof.Gen.KernelIdeal.Frame
import proofs.«145399_j420906795778_2_alg».proof.Proof.MlpPayload
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-! ## The edge-add kernel -/

/-- At point `t` every window of the edge-add kernel is on block `(t, 0)`. -/
theorem add_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The messages: the entrywise sum of the gathered source features and the edge features. -/
def msgArr (c : Dev nD) : FVec Ideal S1600000x64 .f32 :=
  addf (V c main_v6 : FVec Ideal S1600000x64 .f32) (V c main_arg1 : FVec Ideal S1600000x64 .f32)

/-- Point `t` writes back block `t` of the messages. -/
theorem add_flushed (c : Dev nD) (t : Fin cfg0.N) :
    (dat0 V c).flushed 2 t = ((cfg0.win 2).blk t).view.read (Elt Ideal) (msgArr V c) := by
  show (cfg0.win 2).cut (grid0.coords t) ((dat0 V c).after 2 t) = _
  rw [after0_2]
  unfold out0_2
  rw [View.canon_unit_zero zero2]
  simp only [View.ld_unit_zero (S := S8000x64) zero2]
  rw [Payload.add_pay]
  obtain ⟨e0, e1, e2, e3, e4, e5⟩ := add_index t
  funext j
  show FloatOps.addf (F := Ideal) (φ := .f32) (V c main_v6 (((cfg0.win 0).blk t).view.emb j)) (V c main_arg1 (((cfg0.win 1).blk t).view.emb j))
    = FloatOps.addf (F := Ideal) (φ := .f32) (V c main_v6 (((cfg0.win 2).blk t).view.emb j)) (V c main_arg1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 64 + 1 * (j 1).val = win0_2.index t (1 : Fin 2) * 64 + 1 * (j 1).val; omega
  rw [h0, h1]

/-- An index of the message array is in point `t`'s block iff each coordinate is in the block's range. -/
theorem add_mem_blk (t : Fin cfg0.N) (i : S1600000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v7).slice (win0_2.rect t)).set ↔ _
  rw [View.set_slice_whole, Rect.mem_set_unit]
  exact Iff.rfl

/-- Row `r` of the message array is in the block of point `r / 8000`. -/
theorem add_cover (i : S1600000x64.Idx) :
    ∃ t : Fin cfg0.N, (cfg0.win 2).flush t = true ∧ i ∈ ((cfg0.win 2).blk t).view.set := by
  have hi0 : (i 0).val < 1600000 := (i 0).isLt
  have hi1 : (i 1).val < 64 := (i 1).isLt
  have hN : cfg0.N = 200 := N_0
  obtain ⟨t, ht⟩ : ∃ t : Fin cfg0.N, t.val = (i 0).val / 8000 :=
    ⟨⟨(i 0).val / 8000, by omega⟩, rfl⟩
  obtain ⟨-, -, -, -, e4, e5⟩ := add_index t
  refine ⟨t, flush0_2 t, ?_⟩
  rw [add_mem_blk]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 64 ≤ (i 1).val ∧ (i 1).val < win0_2.index t (1 : Fin 2) * 64 + 64; omega

/-- After the edge-add kernel its result array holds the messages. -/
theorem add_final (c : Dev nD) : (dat0 V c).arrAt 2 cfg0.N = msgArr V c :=
  (dat0 V c).arrAt_eq_of_cover 2 (msgArr V c) (fun t _ => add_flushed V c t) add_cover

/-! ## The MLP kernel -/

/-- At point `t` the aggregated features and the result are on block `(t, 0)`; the weights and biases are whole. -/
theorem mlp_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The two-layer perceptron of the aggregated features as the kernel finds them. -/
def mlpArr (c : Dev nD) : FVec Ideal S50000x64 .f32 :=
  Cert.GinMlp.outArr 50000 (V c main_v10) (V c main_arg4) (V c main_arg5) (V c main_arg6) (V c main_arg7)

/-- Point `t` writes back block `t` of the perceptron of the whole array. -/
theorem mlp_flushed (c : Dev nD) (t : Fin cfg1.N) :
    (dat1 V c).flushed 5 t = ((cfg1.win 5).blk t).view.read (Elt Ideal) (mlpArr V c) := by
  show (cfg1.win 5).cut (grid1.coords t) ((dat1 V c).after 5 t) = _
  rw [after1_5]
  unfold out1_5
  rw [View.canon_unit_zero zero2]
  simp only [View.ld_unit_zero (S := S5000x64) zero2, View.ld_unit_zero (S := S64x128) zero2,
    View.ld_unit_zero (S := S128) zero1, View.ld_unit_zero (S := S128x64) zero2, View.ld_unit_zero (S := S64) zero1]
  obtain ⟨e0, e1, e2, e3, e4, e5, e6, e7, e8, e9⟩ := mlp_index t
  have ht : t.val < 10 := by have h := t.isLt; have hN : cfg1.N = 10 := N_1; omega
  show (k1_pay1 (iblk1 V c 0 t) (iblk1 V c 1 t) (iblk1 V c 2 t) (iblk1 V c 3 t) (iblk1 V c 4 t) : S5000x64.Idx → EReal)
    = fun j : S5000x64.Idx => mlpArr V c (((cfg1.win 5).blk t).view.emb j)
  funext j
  obtain ⟨p, q, rfl⟩ : ∃ (p : Fin 5000) (q : Fin 64), j = ix2 p q := ⟨j 0, j 1, eq_ix2 j⟩
  refine (Payload.mlp_pay_apply _ _ _ _ _ p q).trans ?_
  have hemb : ((cfg1.win 5).blk t).view.emb (ix2 p q) = ix2 (⟨t.val * 5000 + p.val, by omega⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  rw [hemb]
  unfold mlpArr
  rw [Cert.GinMlp.outArr_ix2]
  refine Cert.GinMlp.out_congr 5000 _ _ _ _ _ _ _ _ _ _ p _ q ?_ ?_ ?_ ?_ ?_
  · intro j'
    show V c main_v10 (((cfg1.win 0).blk t).view.emb (ix2 p j')) = V c main_v10 (ix2 _ j')
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * j'.val = j'.val; omega
  · intro j' k
    show V c main_arg4 (((cfg1.win 1).blk t).view.emb (ix2 j' k)) = V c main_arg4 (ix2 j' k)
    refine congrArg _ (funext fun a => Fin.ext ?_)
    match a with
    | ⟨0, _⟩ => show win1_1.index t (0 : Fin 2) * 64 + 1 * j'.val = j'.val; omega
    | ⟨1, _⟩ => show win1_1.index t (1 : Fin 2) * 128 + 1 * k.val = k.val; omega
  · intro k
    show V c main_arg5 (((cfg1.win 2).blk t).view.emb (ix1 k)) = V c main_arg5 (ix1 k)
    refine congrArg _ (funext fun a => Fin.ext ?_)
    match a with
    | ⟨0, _⟩ => show win1_2.index t (0 : Fin 1) * 128 + 1 * k.val = k.val; omega
  · intro k c'
    show V c main_arg6 (((cfg1.win 3).blk t).view.emb (ix2 k c')) = V c main_arg6 (ix2 k c')
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * c'.val = c'.val; omega
  · intro c'
    show V c main_arg7 (((cfg1.win 4).blk t).view.emb (ix1 c')) = V c main_arg7 (ix1 c')
    refine congrArg _ (funext fun a => Fin.ext ?_)
    match a with
    | ⟨0, _⟩ => show win1_4.index t (0 : Fin 1) * 64 + 1 * c'.val = c'.val; omega

/-- An index of the result array is in point `t`'s block iff each coordinate is in the block's range. -/
theorem mlp_mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v11).slice (win1_5.rect t)).set ↔ _
  rw [View.set_slice_whole, Rect.mem_set_unit]
  exact Iff.rfl

/-- Row `r` of the result array is in the block of point `r / 5000`. -/
theorem mlp_cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 :=
    ⟨⟨(i 0).val / 5000, by omega⟩, rfl⟩
  obtain ⟨-, -, -, -, -, -, -, -, e8, e9⟩ := mlp_index t
  refine ⟨t, flush1_5 t, ?_⟩
  rw [mlp_mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the MLP kernel its result array holds the perceptron of the aggregated features. -/
theorem mlp_final (c : Dev nD) : (dat1 V c).arrAt 5 cfg1.N = mlpArr V c :=
  (dat1 V c).arrAt_eq_of_cover 5 (mlpArr V c) (fun t _ => mlp_flushed V c t) mlp_cover

end Cert.KernelIdeal.BlockValue

end
-- ==== Proof.KernelFold.lean ====
/-
  The idealized kernel's result array as one function of the launch memory.

  The boundary contents are walked back: the MLP kernel's result is the perceptron of the aggregated features it finds;
  those are the host's segment sum (a scatter-add into zeros at the destination rows) of the messages; the messages are
  what the edge-add kernel left, the entrywise sum of the gathered source rows and the edge features; the gathered rows
  are the host's gather of the node features at the source indices (negative indices wrapped by the node count, as the
  program computes them); every weight, bias and index array is as launched.
-/
import proofs.«145399_j420906795778_2_alg».proof.Proof.KernelValue

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo
open Cert.KernelIdeal.BlockValue

/-- The source indices as the gather takes them: negative ones wrapped by the node count, one index vector per edge. -/
def srcIdx (x2 : IVec S1600000 32) : IVec S1600000x1 32 :=
  broadcastInDim S1600000x1 ![0] bcast_S1600000_S1600000x1_0
    (select (cmpi .slt x2 (broadcastInDim S1600000 ![] bcast_S_S1600000 (constantI S_ 32 0#32)))
      (addi x2 (broadcastInDim S1600000 ![] bcast_S_S1600000 (constantI S_ 32 50000#32))) x2)

/-- The messages: gathered source rows plus edge features. -/
def msg (x0 : FVec Ideal S50000x64 .f32) (x1 : FVec Ideal S1600000x64 .f32) (x2 : IVec S1600000 32) :
    FVec Ideal S1600000x64 .f32 :=
  addf (Host.gather gather_S50000x64_S1600000x1_S1600000x64_1_0_n_n_0_1_164 x0 (srcIdx x2)) x1

/-- The aggregated features: the messages summed at their destination rows, from zero. -/
def agg (x0 : FVec Ideal S50000x64 .f32) (x1 : FVec Ideal S1600000x64 .f32) (x2 x3 : IVec S1600000 32) :
    FVec Ideal S50000x64 .f32 :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 x3) (msg x0 x1 x2)

variable (m : (ℓ : Loc nD τ sig) → Buf (Elt Ideal) ℓ) (ρ : Dev nD → PrngReg)

/-- Before the edge-add kernel, an argument array is as launched. -/
theorem W1_arg (c : Dev nD) (b : Ref sig .tc) (hb : b = main_arg0 ∨ b = main_arg1 ∨ b = main_arg2 ∨ b = main_arg3 ∨ b = main_arg4 ∨ b = main_arg5 ∨ b = main_arg6 ∨ b = main_arg7) :
    W1 m ρ c (Proc.devRef .tc b) = m ((c : Thread nD τ).loc b) := by
  rcases hb with rfl | rfl | rfl | rfl | rfl | rfl | rfl | rfl <;>
  · show StableHlo.after hostOps0 (W0 m ρ c) (Proc.devRef .tc _) = _
    after_results

/-- The edge-add kernel's first operand is the gathered source rows. -/
theorem v6_eq (c : Dev nD) :
    V1 m ρ c main_v6 = Host.gather gather_S50000x64_S1600000x1_S1600000x64_1_0_n_n_0_1_164
      (m ((c : Thread nD τ).loc main_arg0)) (srcIdx (m ((c : Thread nD τ).loc main_arg2))) := by
  show StableHlo.after hostOps0 (W0 m ρ c) (Proc.devRef .tc main_v6) = _
  after_results
  rfl

/-- What the edge-add kernel leaves in its result array: the messages. -/
theorem v7_eq (c : Dev nD) :
    W2 m ρ c (Proc.devRef .tc main_v7)
      = msg (m ((c : Thread nD τ).loc main_arg0)) (m ((c : Thread nD τ).loc main_arg1)) (m ((c : Thread nD τ).loc main_arg2)) := by
  refine (W2_arr m ρ c 2).trans ((add_final (V1 m ρ) c).trans ?_)
  unfold msgArr msg
  rw [v6_eq, show V1 m ρ c main_arg1 = m ((c : Thread nD τ).loc main_arg1) from W1_arg m ρ c main_arg1 (by simp)]

/-- After the edge-add kernel, an argument array it does not stage is as launched. -/
theorem W2_arg (c : Dev nD) (b : Ref sig .tc) (hb : b = main_arg3 ∨ b = main_arg4 ∨ b = main_arg5 ∨ b = main_arg6 ∨ b = main_arg7) :
    W2 m ρ c (Proc.devRef .tc b) = m ((c : Thread nD τ).loc b) := by
  rcases hb with rfl | rfl | rfl | rfl | rfl
  · exact (W2_of_ne m ρ c main_arg3 (by decide)).trans (W1_arg m ρ c main_arg3 (by simp))
  · exact (W2_of_ne m ρ c main_arg4 (by decide)).trans (W1_arg m ρ c main_arg4 (by simp))
  · exact (W2_of_ne m ρ c main_arg5 (by decide)).trans (W1_arg m ρ c main_arg5 (by simp))
  · exact (W2_of_ne m ρ c main_arg6 (by decide)).trans (W1_arg m ρ c main_arg6 (by simp))
  · exact (W2_of_ne m ρ c main_arg7 (by decide)).trans (W1_arg m ρ c main_arg7 (by simp))

/-- The MLP kernel's first operand is the aggregated features. -/
theorem v10_eq (c : Dev nD) :
    V3 m ρ c main_v10 = agg (m ((c : Thread nD τ).loc main_arg0)) (m ((c : Thread nD τ).loc main_arg1))
      (m ((c : Thread nD τ).loc main_arg2)) (m ((c : Thread nD τ).loc main_arg3)) := by
  show StableHlo.after hostOps1 (W2 m ρ c) (Proc.devRef .tc main_v10) = _
  after_results
  rw [v7_eq, W2_arg m ρ c main_arg3 (by simp)]
  rfl

/-- The MLP kernel finds each weight and bias array as launched. -/
theorem V3_arg (c : Dev nD) (b : Ref sig .tc) (hb : b = main_arg4 ∨ b = main_arg5 ∨ b = main_arg6 ∨ b = main_arg7) :
    V3 m ρ c b = m ((c : Thread nD τ).loc b) := by
  rcases hb with rfl | rfl | rfl | rfl
  · show StableHlo.after hostOps1 (W2 m ρ c) (Proc.devRef .tc main_arg4) = _
    after_results
    exact W2_arg m ρ c main_arg4 (by simp)
  · show StableHlo.after hostOps1 (W2 m ρ c) (Proc.devRef .tc main_arg5) = _
    after_results
    exact W2_arg m ρ c main_arg5 (by simp)
  · show StableHlo.after hostOps1 (W2 m ρ c) (Proc.devRef .tc main_arg6) = _
    after_results
    exact W2_arg m ρ c main_arg6 (by simp)
  · show StableHlo.after hostOps1 (W2 m ρ c) (Proc.devRef .tc main_arg7) = _
    after_results
    exact W2_arg m ρ c main_arg7 (by simp)

/-- The result array after the run: the perceptron of the aggregated features, all of the launch memory. -/
theorem result_eq (c : Dev nD) :
    W4 m ρ c (Proc.devRef .tc main_v11)
      = Cert.GinMlp.outArr 50000
          (agg (m ((c : Thread nD τ).loc main_arg0)) (m ((c : Thread nD τ).loc main_arg1))
            (m ((c : Thread nD τ).loc main_arg2)) (m ((c : Thread nD τ).loc main_arg3)))
          (m ((c : Thread nD τ).loc main_arg4)) (m ((c : Thread nD τ).loc main_arg5))
          (m ((c : Thread nD τ).loc main_arg6)) (m ((c : Thread nD τ).loc main_arg7)) := by
  refine (W4_arr m ρ c 5).trans ((mlp_final (V3 m ρ) c).trans ?_)
  unfold mlpArr
  rw [v10_eq, V3_arg m ρ c main_arg4 (by simp), V3_arg m ρ c main_arg5 (by simp), V3_arg m ρ c main_arg6 (by simp),
    V3_arg m ρ c main_arg7 (by simp)]

end Cert.KernelIdeal.Fold

end
-- ==== Proof.RefValue.lean ====
/-
  The reference's result, entry by entry.

  The reference gathers the source rows, adds the edge features, sums the messages at their destination rows (the
  aggregated features), and applies the two-layer perceptron with whole-matrix products: entry `(p, q)` of its result
  is `∑ k, max (∑ j, agg p j · W1 j k + b1 k) 0 · W2 k q + b2 q`, the perceptron's output `q` of row `p` of the
  aggregated features. The perceptron's part is read for ANY matrix of aggregated features, so that the gather and the
  segment sum are never opened.
-/
import proofs.«145399_j420906795778_2_alg».proof.Proof.Gen.ReferenceIdeal.Read
import proofs.«145399_j420906795778_2_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx
open scoped BigOperators

/-- The first product's dimension numbers are the plain ones. -/
theorem dot1_plain : dot_S50000x64_S64x128_S50000x128_1_0_0_1_n_n = DotDims.plain 50000 64 128 := rfl
/-- The second product's dimension numbers are the plain ones. -/
theorem dot2_plain : dot_S50000x128_S128x64_S50000x64_1_0_0_1_n_n = DotDims.plain 50000 128 64 := rfl

/-- The reference's operations after the segment sum, applied to any matrix of aggregated features. -/
def tail (A : FVec Ideal S50000x64 .f32) (x4 : FVec Ideal S64x128 .f32) (x5 : FVec Ideal S128 .f32)
    (x6 : FVec Ideal S128x64 .f32) (x7 : FVec Ideal S64 .f32) : FVec Ideal S50000x64 .f32 :=
  addf (Host.dotGeneral dot_S50000x128_S128x64_S50000x64_1_0_0_1_n_n none
      (maximumf (addf (Host.dotGeneral dot_S50000x64_S64x128_S50000x128_1_0_0_1_n_n none A x4) (val_main_v13 (F := Ideal) x5))
        (val_main_call0_v0 (F := Ideal))) x6)
    (val_main_v18 (F := Ideal) x7)

/-- The reference's last stage is those operations applied to its aggregated features. -/
theorem stage_eq_tail (x0 : FVec Ideal S50000x64 .f32) (x1 : FVec Ideal S1600000x64 .f32) (x2 x3 : IVec S1600000 32)
    (x4 : FVec Ideal S64x128 .f32) (x5 : FVec Ideal S128 .f32) (x6 : FVec Ideal S128x64 .f32) (x7 : FVec Ideal S64 .f32) :
    val_main_v19 (F := Ideal) x0 x1 x2 x3 x4 x5 x6 x7 = tail (val_main_v10 (F := Ideal) x0 x1 x2 x3) x4 x5 x6 x7 := by
  unfold val_main_v19 val_main_v16 val_main_v15 val_main_v14 val_main_v11 tail
  rfl

/-- The bias of the first layer, broadcast over the rows, at `(p, k)`. -/
theorem bias1_apply (x5 : FVec Ideal S128 .f32) (p : Fin 50000) (k : Fin 128) :
    val_main_v13 (F := Ideal) x5 (ix2 p k) = x5 (ix1 k) := by
  rw [val_main_v13_apply, val_main_v12_apply]
  exact congrArg x5 (funext fun a => by match a with | ⟨0, _⟩ => rfl)

/-- The bias of the second layer, broadcast over the rows, at `(p, q)`. -/
theorem bias2_apply (x7 : FVec Ideal S64 .f32) (p : Fin 50000) (q : Fin 64) :
    val_main_v18 (F := Ideal) x7 (ix2 p q) = x7 (ix1 q) := by
  rw [val_main_v18_apply, val_main_v17_apply]
  exact congrArg x7 (funext fun a => by match a with | ⟨0, _⟩ => rfl)

/-- The rectifier's zero, broadcast, at any entry. -/
theorem zero_apply (i : S50000x128.Idx) : val_main_call0_v0 (F := Ideal) i = Ideal.ofBits .f32 0x00000000#32 := by
  rw [val_main_call0_v0_apply, val_main_call0_cst_apply]
  rfl

/-- Those operations at entry `(p, q)`: the perceptron's output `q` of row `p`. -/
theorem tail_apply (A : FVec Ideal S50000x64 .f32) (x4 : FVec Ideal S64x128 .f32) (x5 : FVec Ideal S128 .f32)
    (x6 : FVec Ideal S128x64 .f32) (x7 : FVec Ideal S64 .f32) (p : Fin 50000) (q : Fin 64) :
    tail A x4 x5 x6 x7 (ix2 p q) = Cert.GinMlp.out 50000 A x4 x5 x6 x7 p q := by
  unfold tail
  rw [dot1_plain, dot2_plain, addf_apply, Cert.LibPlainMatmul.dotGeneral_apply, bias2_apply]
  unfold Cert.GinMlp.out
  refine congrArg (· + x7 (ix1 q)) (Finset.sum_congr rfl fun k _ => congrArg (· * x6 (ix2 k q)) ?_)
  rw [maximumf_apply, addf_apply, Cert.LibPlainMatmul.dotGeneral_apply, bias1_apply, zero_apply]
  rfl

/-- The reference's last stage is the perceptron of its aggregated features. -/
theorem result_eq (x0 : FVec Ideal S50000x64 .f32) (x1 : FVec Ideal S1600000x64 .f32) (x2 x3 : IVec S1600000 32)
    (x4 : FVec Ideal S64x128 .f32) (x5 : FVec Ideal S128 .f32) (x6 : FVec Ideal S128x64 .f32) (x7 : FVec Ideal S64 .f32) :
    val_main_v19 (F := Ideal) x0 x1 x2 x3 x4 x5 x6 x7
      = Cert.GinMlp.outArr 50000 (val_main_v10 (F := Ideal) x0 x1 x2 x3) x4 x5 x6 x7 := by
  rw [stage_eq_tail]
  generalize val_main_v10 (F := Ideal) x0 x1 x2 x3 = A
  funext i
  obtain ⟨p, q, rfl⟩ : ∃ (p : Fin 50000) (q : Fin 64), i = ix2 p q := ⟨i 0, i 1, eq_ix2 i⟩
  rw [Cert.GinMlp.outArr_ix2]
  exact tail_apply A x4 x5 x6 x7 p q

end Cert.ReferenceIdeal.RefValue

end
-- ==== Proof.Bridge.lean ====
/-
  The two programs aggregate the same messages.

  Both programs' host operations gather the source rows, and sum the messages at the destination rows, with the same
  dimension numbers; the idealized kernel's messages (computed by its edge-add kernel) and the reference's (a host
  addition) are the same entrywise sum. So the aggregated features the MLP kernel is given are the reference's, as
  whole arrays: neither the gather nor the segment sum is ever opened.
-/
import proofs.«145399_j420906795778_2_alg».proof.Proof.KernelFold
import proofs.«145399_j420906795778_2_alg».proof.Proof.RefValue

noncomputable section

namespace Cert.Bridge

open Idealize.ShloMosaic

/-- The gather's dimension numbers are the same record in both programs. -/
theorem gather_rec : Cert.KernelIdeal.gather_S50000x64_S1600000x1_S1600000x64_1_0_n_n_0_1_164
    = Cert.ReferenceIdeal.gather_S50000x64_S1600000x1_S1600000x64_1_0_n_n_0_1_164 := rfl

/-- The segment sum's dimension numbers are the same record in both programs. -/
theorem scatter_rec : Cert.KernelIdeal.scatter_S50000x64_S1600000x1_S1600000x64_1_0_0_1
    = Cert.ReferenceIdeal.scatter_S50000x64_S1600000x1_S1600000x64_1_0_0_1 := rfl

open Cert.ReferenceIdeal.Read in
/-- The aggregated features the MLP kernel is given are the reference's. -/
theorem agg_eq (x0 : FVec Ideal Cert.KernelIdeal.S50000x64 .f32) (x1 : FVec Ideal Cert.KernelIdeal.S1600000x64 .f32)
    (x2 x3 : IVec Cert.KernelIdeal.S1600000 32) :
    Cert.KernelIdeal.Fold.agg x0 x1 x2 x3 = Cert.ReferenceIdeal.Read.val_main_v10 (F := Ideal) x0 x1 x2 x3 := by
  unfold Cert.KernelIdeal.Fold.agg Cert.KernelIdeal.Fold.msg Cert.KernelIdeal.Fold.srcIdx
  unfold val_main_v10 val_main_v7 val_main_v6 val_main_v5 val_main_v4 val_main_v3 val_main_v1 val_main_v2 val_main_v0
    val_main_c val_main_c_0 val_main_v8 val_main_v9 val_main_cst
  rw [gather_rec, scatter_rec]

end Cert.Bridge

end
-- ==== Proof.lean ====
/-
  A GIN-style message-passing layer: per edge the message is the source node's features plus the edge's features, a
  node's aggregate is the sum of the messages arriving at it, and the output is a two-layer perceptron with a rectifier
  of the aggregates. The kernel program computes the messages in a Pallas kernel over blocks of 8000 edges and the
  perceptron in a second one over blocks of 5000 nodes (rounding the products' operands to bf16, which is the identity
  on extended reals); the gather and the segment sum are host operations in both programs, with the same dimension
  numbers. On the extended reals the two programs compute the same function of the arguments, operation for operation:
  a block of the entrywise sum is the sum of the blocks, and a row of the perceptron's output depends on that row of the
  aggregates only, so block of rows by block of rows is the whole. No algebraic law is used beyond reading each matrix
  product as the sum over its contraction index, so the finiteness of the inputs is never opened.
-/
import proofs.«145399_j420906795778_2_alg».proof.Defs
import proofs.«145399_j420906795778_2_alg».proof.Proof.Gen.Kernel
import proofs.«145399_j420906795778_2_alg».proof.Proof.Gen.Kernel.Frame
import proofs.«145399_j420906795778_2_alg».proof.Proof.Gen.KernelIdeal
import proofs.«145399_j420906795778_2_alg».proof.Proof.Gen.KernelIdeal.Frame
import proofs.«145399_j420906795778_2_alg».proof.Proof.Gen.ReferenceIdeal
import proofs.«145399_j420906795778_2_alg».proof.Proof.Gen.ReferenceIdeal.Run
import proofs.«145399_j420906795778_2_alg».proof.Proof.Gen.ReferenceIdeal.Read
import proofs.«145399_j420906795778_2_alg».proof.Proof.Gen.Pre_finite_inputs
import proofs.«145399_j420906795778_2_alg».proof.Proof.KernelRun
import proofs.«145399_j420906795778_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the perceptron of the aggregated messages in their result arrays. -/
theorem algebraic : Cert.algebraic_KernelIdeal_ReferenceIdeal := by
  intro m ρ m' ρ' _ hagree
  refine ⟨fun c => Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.RunValue.run_named (F := Ideal) m ρ)
    rw [Cert.KernelIdeal.Fold.result_eq, Cert.Bridge.agg_eq, ← Cert.ReferenceIdeal.RefValue.result_eq]
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.Read.val_main_v19_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
